-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 174
  | .vmem => 20
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x600000, .i32⟩
  | 16 => ⟨S600000, .i32⟩
  | 17 => ⟨S1x600000, .i32⟩
  | 18 => ⟨S600000, .i32⟩
  | 19 => ⟨S100000, .i32⟩
  | 20 => ⟨S700000, .i32⟩
  | 21 => ⟨S700000, .i32⟩
  | 22 => ⟨S_, .f32⟩
  | 23 => ⟨S700000, .f32⟩
  | 24 => ⟨S_, .f32⟩
  | 25 => ⟨S100000, .f32⟩
  | 26 => ⟨S700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000, .f32⟩
  | 54 => ⟨S700000, .f32⟩
  | 55 => ⟨S100000x128, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000x128, .f32⟩
  | 65 => ⟨S700000x1, .f32⟩
  | 66 => ⟨S700000x128, .f32⟩
  | 67 => ⟨S700000x128, .f32⟩
  | 68 => ⟨S_, .f32⟩
  | 69 => ⟨S100000x128, .f32⟩
  | 70 => ⟨S700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S700000, .i32⟩
  | 81 => ⟨S700000, .i1⟩
  | 82 => ⟨S_, .i32⟩
  | 83 => ⟨S700000, .i32⟩
  | 84 => ⟨S700000, .i32⟩
  | 85 => ⟨S700000, .i32⟩
  | 86 => ⟨S700000x1, .i32⟩
  | 87 => ⟨S700000x128, .f32⟩
  | 88 => ⟨S700000x1, .f32⟩
  | 89 => ⟨S700000x128, .f32⟩
  | 90 => ⟨S700000x128, .f32⟩
  | 91 => ⟨S_, .f32⟩
  | 92 => ⟨S100000x128, .f32⟩
  | 93 => ⟨S700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S700000, .i32⟩
  | 104 => ⟨S700000, .i1⟩
  | 105 => ⟨S_, .i32⟩
  | 106 => ⟨S700000, .i32⟩
  | 107 => ⟨S700000, .i32⟩
  | 108 => ⟨S700000, .i32⟩
  | 109 => ⟨S700000x1, .i32⟩
  | 110 => ⟨S700000x128, .f32⟩
  | 111 => ⟨S700000x1, .f32⟩
  | 112 => ⟨S700000x128, .f32⟩
  | 113 => ⟨S700000x128, .f32⟩
  | 114 => ⟨S_, .f32⟩
  | 115 => ⟨S100000x128, .f32⟩
  | 116 => ⟨S700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .i32⟩
  | 126 => ⟨S700000, .i32⟩
  | 127 => ⟨S700000, .i1⟩
  | _ => ⟨S100000x128, .f32⟩

abbrev hbmTy0_1 (i : Nat) : BufTy := match i % 128 with
  | 0 => ⟨S_, .i32⟩
  | 1 => ⟨S700000, .i32⟩
  | 2 => ⟨S700000, .i32⟩
  | 3 => ⟨S700000, .i32⟩
  | 4 => ⟨S700000x1, .i32⟩
  | 5 => ⟨S700000x128, .f32⟩
  | 6 => ⟨S700000x1, .f32⟩
  | 7 => ⟨S700000x128, .f32⟩
  | 8 => ⟨S700000x128, .f32⟩
  | 9 => ⟨S_, .f32⟩
  | 10 => ⟨S100000x128, .f32⟩
  | 11 => ⟨S700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .f32⟩
  | 20 => ⟨S256x128, .f32⟩
  | 21 => ⟨S100000x1, .i32⟩
  | 22 => ⟨S256x128, .f32⟩
  | 23 => ⟨S_, .f32⟩
  | 24 => ⟨S100000, .f32⟩
  | 25 => ⟨S_, .f32⟩
  | 26 => ⟨S256, .f32⟩
  | 27 => ⟨S100000x1, .i32⟩
  | 28 => ⟨S256, .f32⟩
  | 29 => ⟨S_, .f32⟩
  | 30 => ⟨S256, .f32⟩
  | 31 => ⟨S256, .f32⟩
  | 32 => ⟨S256x1, .f32⟩
  | 33 => ⟨S256x128, .f32⟩
  | 34 => ⟨S256x128, .f32⟩
  | 35 => ⟨S256x128, .f32⟩
  | 36 => ⟨S1x128, .f32⟩
  | 37 => ⟨S256x128, .f32⟩
  | 38 => ⟨S256x128, .f32⟩
  | 39 => ⟨S_, .f32⟩
  | 40 => ⟨S256x128, .f32⟩
  | 41 => ⟨S256x128, .f32⟩
  | 42 => ⟨S256x1, .f32⟩
  | 43 => ⟨S1x1, .f32⟩
  | 44 => ⟨S256x1, .f32⟩
  | 45 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call3_cst : Ref sig .tc := ⟨.hbm, 121, rfl⟩
abbrev main_call3_v0 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call4_cst : Ref sig .tc := ⟨.hbm, 144, rfl⟩
abbrev main_call4_v0 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_19 : Ref sig .tc := ⟨.hbm, 151, rfl⟩
abbrev main_v105 : Ref sig .tc := ⟨.hbm, 152, rfl⟩
abbrev main_cst_20 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_21 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_call5_cst : Ref sig .tc := ⟨.hbm, 167, rfl⟩
abbrev main_call5_v0 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 282
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x600000, .i32⟩
  | 16 => ⟨S600000, .i32⟩
  | 17 => ⟨S1x600000, .i32⟩
  | 18 => ⟨S600000, .i32⟩
  | 19 => ⟨S100000x128, .f32⟩
  | 20 => ⟨S100000, .i32⟩
  | 21 => ⟨S700000, .i32⟩
  | 22 => ⟨S700000, .i32⟩
  | 23 => ⟨S_, .f32⟩
  | 24 => ⟨S700000, .f32⟩
  | 25 => ⟨S_, .f32⟩
  | 26 => ⟨S100000, .f32⟩
  | 27 => ⟨S700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S700000, .i32⟩
  | 39 => ⟨S700000, .i1⟩
  | 40 => ⟨S_, .i32⟩
  | 41 => ⟨S700000, .i32⟩
  | 42 => ⟨S700000, .i32⟩
  | 43 => ⟨S700000, .i32⟩
  | 44 => ⟨S700000x1, .i32⟩
  | 45 => ⟨S700000, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000, .f32⟩
  | 55 => ⟨S700000, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000x128, .f32⟩
  | 65 => ⟨S700000x1, .f32⟩
  | 66 => ⟨S700000x128, .f32⟩
  | 67 => ⟨S700000x128, .f32⟩
  | 68 => ⟨S_, .f32⟩
  | 69 => ⟨S100000x128, .f32⟩
  | 70 => ⟨S700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S100000, .i32⟩
  | 80 => ⟨S700000, .i32⟩
  | 81 => ⟨S700000, .i32⟩
  | 82 => ⟨S_, .f32⟩
  | 83 => ⟨S700000, .f32⟩
  | 84 => ⟨S_, .f32⟩
  | 85 => ⟨S100000, .f32⟩
  | 86 => ⟨S700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000, .f32⟩
  | 114 => ⟨S700000, .f32⟩
  | 115 => ⟨S_, .i32⟩
  | 116 => ⟨S700000, .i32⟩
  | 117 => ⟨S700000, .i1⟩
  | 118 => ⟨S_, .i32⟩
  | 119 => ⟨S700000, .i32⟩
  | 120 => ⟨S700000, .i32⟩
  | 121 => ⟨S700000, .i32⟩
  | 122 => ⟨S700000x1, .i32⟩
  | 123 => ⟨S700000x128, .f32⟩
  | 124 => ⟨S700000x1, .f32⟩
  | 125 => ⟨S700000x128, .f32⟩
  | 126 => ⟨S700000x128, .f32⟩
  | 127 => ⟨S_, .f32⟩
  | _ => ⟨S100000x128, .f32⟩

abbrev hbmTy0_1 (i : Nat) : BufTy := match i % 128 with
  | 0 => ⟨S100000x128, .f32⟩
  | 1 => ⟨S700000x1, .i32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S100000, .i32⟩
  | 11 => ⟨S700000, .i32⟩
  | 12 => ⟨S700000, .i32⟩
  | 13 => ⟨S_, .f32⟩
  | 14 => ⟨S700000, .f32⟩
  | 15 => ⟨S_, .f32⟩
  | 16 => ⟨S100000, .f32⟩
  | 17 => ⟨S700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S700000, .i32⟩
  | 29 => ⟨S700000, .i1⟩
  | 30 => ⟨S_, .i32⟩
  | 31 => ⟨S700000, .i32⟩
  | 32 => ⟨S700000, .i32⟩
  | 33 => ⟨S700000, .i32⟩
  | 34 => ⟨S700000x1, .i32⟩
  | 35 => ⟨S700000, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S700000, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000x128, .f32⟩
  | 55 => ⟨S700000x1, .f32⟩
  | 56 => ⟨S700000x128, .f32⟩
  | 57 => ⟨S700000x128, .f32⟩
  | 58 => ⟨S_, .f32⟩
  | 59 => ⟨S100000x128, .f32⟩
  | 60 => ⟨S700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000, .i32⟩
  | 70 => ⟨S700000, .i32⟩
  | 71 => ⟨S700000, .i32⟩
  | 72 => ⟨S_, .f32⟩
  | 73 => ⟨S700000, .f32⟩
  | 74 => ⟨S_, .f32⟩
  | 75 => ⟨S100000, .f32⟩
  | 76 => ⟨S700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S700000, .i32⟩
  | 88 => ⟨S700000, .i1⟩
  | 89 => ⟨S_, .i32⟩
  | 90 => ⟨S700000, .i32⟩
  | 91 => ⟨S700000, .i32⟩
  | 92 => ⟨S700000, .i32⟩
  | 93 => ⟨S700000x1, .i32⟩
  | 94 => ⟨S700000, .f32⟩
  | 95 => ⟨S_, .i32⟩
  | 96 => ⟨S700000, .i32⟩
  | 97 => ⟨S700000, .i1⟩
  | 98 => ⟨S_, .i32⟩
  | 99 => ⟨S700000, .i32⟩
  | 100 => ⟨S700000, .i32⟩
  | 101 => ⟨S700000, .i32⟩
  | 102 => ⟨S700000x1, .i32⟩
  | 103 => ⟨S700000, .f32⟩
  | 104 => ⟨S700000, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000x128, .f32⟩
  | 114 => ⟨S700000x1, .f32⟩
  | 115 => ⟨S700000x128, .f32⟩
  | 116 => ⟨S700000x128, .f32⟩
  | 117 => ⟨S_, .f32⟩
  | 118 => ⟨S100000x128, .f32⟩
  | 119 => ⟨S700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S256x128, .f32⟩
  | 1 => ⟨S100000x1, .i32⟩
  | 2 => ⟨S256x128, .f32⟩
  | 3 => ⟨S_, .f32⟩
  | 4 => ⟨S100000, .f32⟩
  | 5 => ⟨S_, .f32⟩
  | 6 => ⟨S256, .f32⟩
  | 7 => ⟨S100000x1, .i32⟩
  | 8 => ⟨S256, .f32⟩
  | 9 => ⟨S_, .f32⟩
  | 10 => ⟨S256, .f32⟩
  | 11 => ⟨S256, .f32⟩
  | 12 => ⟨S256x1, .f32⟩
  | 13 => ⟨S256x128, .f32⟩
  | 14 => ⟨S256x128, .f32⟩
  | 15 => ⟨S256x128, .f32⟩
  | 16 => ⟨S1x128, .f32⟩
  | 17 => ⟨S256x128, .f32⟩
  | 18 => ⟨S256x128, .f32⟩
  | 19 => ⟨S_, .f32⟩
  | 20 => ⟨S256x128, .f32⟩
  | 21 => ⟨S256x128, .f32⟩
  | 22 => ⟨S256x1, .f32⟩
  | 23 => ⟨S1x1, .f32⟩
  | 24 => ⟨S256x1, .f32⟩
  | 25 => ⟨S256x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call3_cst : Ref sig .tc := ⟨.hbm, 134, rfl⟩
abbrev main_call3_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v103 : Ref sig .tc := ⟨.hbm, 154, rfl⟩
abbrev main_c_24 : Ref sig .tc := ⟨.hbm, 155, rfl⟩
abbrev main_v104 : Ref sig .tc := ⟨.hbm, 156, rfl⟩
abbrev main_v105 : Ref sig .tc := ⟨.hbm, 157, rfl⟩
abbrev main_c_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_26 : Ref sig .tc := ⟨.hbm, 164, rfl⟩
abbrev main_v111 : Ref sig .tc := ⟨.hbm, 165, rfl⟩
abbrev main_v112 : Ref sig .tc := ⟨.hbm, 166, rfl⟩
abbrev main_c_27 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_28 : Ref sig .tc := ⟨.hbm, 174, rfl⟩
abbrev main_v119 : Ref sig .tc := ⟨.hbm, 175, rfl⟩
abbrev main_v120 : Ref sig .tc := ⟨.hbm, 176, rfl⟩
abbrev main_c_29 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_30 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_call5_cst : Ref sig .tc := ⟨.hbm, 193, rfl⟩
abbrev main_call5_v0 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_31 : Ref sig .tc := ⟨.hbm, 200, rfl⟩
abbrev main_v140 : Ref sig .tc := ⟨.hbm, 201, rfl⟩
abbrev main_cst_32 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_33 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_34 : Ref sig .tc := ⟨.hbm, 210, rfl⟩
abbrev main_call6_v0 : Ref sig .tc := ⟨.hbm, 211, rfl⟩
abbrev main_call6_v1 : Ref sig .tc := ⟨.hbm, 212, rfl⟩
abbrev main_v147 : Ref sig .tc := ⟨.hbm, 213, rfl⟩
abbrev main_c_35 : Ref sig .tc := ⟨.hbm, 214, rfl⟩
abbrev main_v148 : Ref sig .tc := ⟨.hbm, 215, rfl⟩
abbrev main_v149 : Ref sig .tc := ⟨.hbm, 216, rfl⟩
abbrev main_c_36 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_c_37 : Ref sig .tc := ⟨.hbm, 223, rfl⟩
abbrev main_v155 : Ref sig .tc := ⟨.hbm, 224, rfl⟩
abbrev main_v156 : Ref sig .tc := ⟨.hbm, 225, rfl⟩
abbrev main_c_38 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_c_39 : Ref sig .tc := ⟨.hbm, 233, rfl⟩
abbrev main_v163 : Ref sig .tc := ⟨.hbm, 234, rfl⟩
abbrev main_v164 : Ref sig .tc := ⟨.hbm, 235, rfl⟩
abbrev main_c_40 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_41 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_call7_cst : Ref sig .tc := ⟨.hbm, 252, rfl⟩
abbrev main_call7_v0 : Ref sig .tc := ⟨.hbm, 253, rfl⟩
abbrev main_v179 : Ref sig .tc := ⟨.hbm, 254, rfl⟩
abbrev main_cst_42 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_43 : Ref sig .tc := ⟨.hbm, 259, rfl⟩
abbrev main_v183 : Ref sig .tc := ⟨.hbm, 260, rfl⟩
abbrev main_cst_44 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_cst_45 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_call8_cst : Ref sig .tc := ⟨.hbm, 275, rfl⟩
abbrev main_call8_v0 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel's run with its result kept.

  The program is four tiled matrix products (one per graph-convolution layer) among stretches of host operations.
  The buffer contents at each boundary are a fold from the launch memory: a stretch of host operations applies its
  operations in order, and a product region leaves its output array at what its ten write-backs hold and every other
  buffer as it found it.  Every weakly fair execution terminates with EVERY unscoped buffer at the last fold
  `W18 m ρ c`; read at the returned buffer this is the program's value, and read at an argument it is the argument
  as launched.
-/
import proofs.«146081_j57818849738867_1_alg».proof.Proof.Gen.KernelIdeal.Frame

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's program terminates, nothing
    faulting, with the returned buffer at the last boundary's contents and the argument arrays as launched. -/
theorem kernel_run : θ_run defs (onTc (τ := τ) (main (F := F))) ⟨m, fun _ => 0, ρ⟩ (fun r => ∀ c : Dev nD,
      r.2.mem ((c.tc : Thread nD τ).loc main_v122) = W18 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v122 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.Gcn

end
-- ==== Proof.Spec.lean ====
/-
  The graph network both programs compute, as pure functions of the argument arrays.

  `e : i32[2, 600000]` holds the edges (row 0 the sources, row 1 the targets) of a graph on 100000 nodes.  Every node gets
  a self-loop: the source and target lists become `sFull e`, `dFull e : i32[700000]`.  `deg e` counts, per node, the
  edges that end there (a scatter-add of ones), `dinv e` is its inverse square root where the degree is positive and 0
  elsewhere, and `norm e` is the per-edge weight `dinv[s] · dinv[d]`.  One layer sends the node features `h` to
  `relu (Σ_{edges s→d} norm · (h W)[s] + b)`: the projected features `hW` (an argument here: the two programs compute
  that product differently) gathered at the sources, scaled, scatter-added at the targets, the bias added, clamped at 0.
  After four layers the nodes are mean-pooled per graph (`batch` names each node's graph, 256 graphs; an empty graph
  divides by 1) and a two-layer perceptron gives one number per graph.
-/
import proofs.«146081_j57818849738867_1_alg».proof.ReferenceIdeal
import proofs.«146081_j57818849738867_1_alg».proof.Proof.Gen.ReferenceIdeal

noncomputable section

namespace Cert.Gcn

open Cert.ReferenceIdeal Cert.ReferenceIdeal.Facts₀ Cert.ReferenceIdeal.Facts Idealize.ShloMosaic

variable {F : FTy → Type} [FloatOps F]

/-- Row `r` of the edge array as a vector of 600000 node numbers. -/
def srcRow (e : IVec S2x600000 32) : IVec S600000 32 :=
  shapeCast S600000 (extractStridedSlice S1x600000 ![0, 0] e slices_S2x600000_S1x600000_0_0) shapeCasts_S1x600000_S600000

def dstRow (e : IVec S2x600000 32) : IVec S600000 32 :=
  shapeCast S600000 (extractStridedSlice S1x600000 ![1, 0] e slices_S2x600000_S1x600000_1_0) shapeCasts_S1x600000_S600000

/-- The sources with one self-loop per node appended. -/
def sFull (e : IVec S2x600000 32) : IVec S700000 32 :=
  concatenate S700000 0 [⟨S600000, srcRow e⟩, ⟨S100000, (iotaInDim S100000 32 0)⟩] concatenates_S600000_S100000_S700000_d0

/-- The targets with one self-loop per node appended. -/
def dFull (e : IVec S2x600000 32) : IVec S700000 32 :=
  concatenate S700000 0 [⟨S600000, dstRow e⟩, ⟨S100000, (iotaInDim S100000 32 0)⟩] concatenates_S600000_S100000_S700000_d0

/-- The in-degree of every node, self-loop included: ones scatter-added at the targets. -/
def deg (e : IVec S2x600000 32) : FVec F S100000 .f32 :=
  Host.scatterAdd (F := F) scatter_S100000_S700000x1_S700000_n_0_0_1
    (broadcastInDim S100000 ![] bcast_S_S100000 (constant (F := F) S_ .f32 0x00000000#32))
    (broadcastInDim S700000x1 ![0] bcast_S700000_S700000x1_0 (dFull e))
    (broadcastInDim S700000 ![] bcast_S_S700000 (constant (F := F) S_ .f32 0x3F800000#32))

/-- `deg ^ (-1/2)` where the degree is positive, `0` elsewhere. -/
def dinv (e : IVec S2x600000 32) : FVec F S100000 .f32 :=
  select (cmpf .ogt (deg (F := F) e) (broadcastInDim S100000 ![] bcast_S_S100000 (constant (F := F) S_ .f32 0x00000000#32)))
    (Host.rsqrt (F := F) (deg (F := F) e))
    (broadcastInDim S100000 ![] bcast_S_S100000 (id (constant (F := F) S_ .f32 0x00000000#32)))

/-- A list of node numbers as gather start indices: a negative number counts from the end, and the list becomes a column. -/
def wrapIdx (s : IVec S700000 32) : IVec S700000x1 32 :=
  broadcastInDim S700000x1 ![0] bcast_S700000_S700000x1_0
    (select (cmpi .slt s (broadcastInDim S700000 ![] bcast_S_S700000 (constantI S_ 32 0#32)))
      (addi s (broadcastInDim S700000 ![] bcast_S_S700000 (constantI S_ 32 100000#32))) s)

/-- The weight of every edge: `dinv` at its source times `dinv` at its target. -/
def norm (e : IVec S2x600000 32) : FVec F S700000 .f32 :=
  mulf (Host.gather gather_S100000_S700000x1_S700000_n_0_n_n_0_1_1 (dinv (F := F) e) (wrapIdx (sFull e)))
    (Host.gather gather_S100000_S700000x1_S700000_n_0_n_n_0_1_1 (dinv (F := F) e) (wrapIdx (dFull e)))

/-- The aggregation half of one layer, from the source list `s`, the target list `d`, the edge weights `nrm`, the
    projected features `hW` and the bias: gather at the sources, scale by the weights, scatter-add at the targets, add the
    bias, clamp at zero. -/
def aggregateOf (s d : IVec S700000 32) (nrm : FVec F S700000 .f32) (hW : FVec F S100000x128 .f32) (b : FVec F S128 .f32) :
    FVec F S100000x128 .f32 :=
  maximumf
    (addf
      (Host.scatterAdd (F := F) scatter_S100000x128_S700000x1_S700000x128_1_0_0_1
        (broadcastInDim S100000x128 ![] bcast_S_S100000x128 (constant (F := F) S_ .f32 0x00000000#32))
        (broadcastInDim S700000x1 ![0] bcast_S700000_S700000x1_0 d)
        (mulf (Host.gather gather_S100000x128_S700000x1_S700000x128_1_0_n_n_0_1_1128 hW (wrapIdx s))
          (broadcastInDim S700000x128 ![0, 1] bcast_S700000x1_S700000x128_0_1
            (broadcastInDim S700000x1 ![0] bcast_S700000_S700000x1_0 nrm))))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The same with the self-looped edge lists and the weights computed from the edge array. -/
def aggregate (e : IVec S2x600000 32) (hW : FVec F S100000x128 .f32) (b : FVec F S128 .f32) : FVec F S100000x128 .f32 :=
  aggregateOf (sFull e) (dFull e) (norm (F := F) e) hW b

/-- The dense projection `h W` as ONE product over the whole arrays. -/
def project (h : FVec F S100000x128 .f32) (w : FVec F S128x128 .f32) : FVec F S100000x128 .f32 :=
  Host.dotGeneral (F := F) dot_S100000x128_S128x128_S100000x128_1_0_0_1_n_n none h w

/-- One layer. -/
def layer (e : IVec S2x600000 32) (h : FVec F S100000x128 .f32) (w : FVec F S128x128 .f32) (b : FVec F S128 .f32) :
    FVec F S100000x128 .f32 :=
  aggregate e (project h w) b

/-- Mean pooling per graph and the two-layer perceptron. -/
def readout (batch : IVec S100000 32) (h : FVec F S100000x128 .f32) (ws1 : FVec F S128x128 .f32) (bs1 : FVec F S128 .f32)
    (ws2 : FVec F S128x1 .f32) (bs2 : FVec F S1 .f32) : FVec F S256x1 .f32 :=
  addf
    (Host.dotGeneral (F := F) dot_S256x128_S128x1_S256x1_1_0_0_1_n_n none
      (maximumf
        (addf
          (Host.dotGeneral (F := F) dot_S256x128_S128x128_S256x128_1_0_0_1_n_n none
            (Host.divf (F := F)
              (Host.scatterAdd (F := F) scatter_S256x128_S100000x1_S100000x128_1_0_0_1
                (broadcastInDim S256x128 ![] bcast_S_S256x128 (constant (F := F) S_ .f32 0x00000000#32))
                (broadcastInDim S100000x1 ![0] bcast_S100000_S100000x1_0 batch) h)
              (broadcastInDim S256x128 ![0, 1] bcast_S256x1_S256x128_0_1
                (broadcastInDim S256x1 ![0] bcast_S256_S256x1_0
                  (maximumf
                    (Host.scatterAdd (F := F) scatter_S256_S100000x1_S100000_n_0_0_1
                      (broadcastInDim S256 ![] bcast_S_S256 (constant (F := F) S_ .f32 0x00000000#32))
                      (broadcastInDim S100000x1 ![0] bcast_S100000_S100000x1_0 batch)
                      (broadcastInDim S100000 ![] bcast_S_S100000 (constant (F := F) S_ .f32 0x3F800000#32)))
                    (broadcastInDim S256 ![] bcast_S_S256 (constant (F := F) S_ .f32 0x3F800000#32))))))
            ws1)
          (broadcastInDim S256x128 ![0, 1] bcast_S1x128_S256x128_0_1 (broadcastInDim S1x128 ![1] bcast_S128_S1x128_1 bs1)))
        (broadcastInDim S256x128 ![] bcast_S_S256x128 (constant (F := F) S_ .f32 0x00000000#32)))
      ws2)
    (broadcastInDim S256x1 ![0, 1] bcast_S1x1_S256x1_0_1 (broadcastInDim S1x1 ![1] bcast_S1_S1x1_1 bs2))

/-- The whole network: four layers, then the readout. -/
def network (x : FVec F S100000x128 .f32) (e : IVec S2x600000 32) (batch : IVec S100000 32)
    (w1 : FVec F S128x128 .f32) (b1 : FVec F S128 .f32) (w2 : FVec F S128x128 .f32) (b2 : FVec F S128 .f32)
    (w3 : FVec F S128x128 .f32) (b3 : FVec F S128 .f32) (w4 : FVec F S128x128 .f32) (b4 : FVec F S128 .f32)
    (ws1 : FVec F S128x128 .f32) (bs1 : FVec F S128 .f32) (ws2 : FVec F S128x1 .f32) (bs2 : FVec F S1 .f32) :
    FVec F S256x1 .f32 :=
  readout batch (layer e (layer e (layer e (layer e x w1 b1) w2 b2) w3 b3) w4 b4) ws1 bs1 ws2 bs2

end Cert.Gcn

end
-- ==== Proof.HostSegments.lean ====
/-
  The host operations between the product regions, read as functions of the buffers they start from.

  The program's host side is cut into stretches.  The first three compute, from the edge array alone, the self-looped
  source and target lists (`main_v5`, `main_v6`) and the edge weights (`main_v29`).  After each of the first three
  product regions a pair of stretches aggregates that region's projected features into the next layer's node features;
  after the fourth, five stretches aggregate once more and compute the readout.  No stretch writes an argument array, the
  two lists or the weights once they exist: every operation writes a buffer of its own.
-/
import proofs.«146081_j57818849738867_1_alg».proof.Proof.Gen.KernelIdeal.Launch
import proofs.«146081_j57818849738867_1_alg».proof.Proof.Spec
import Idealize.ShloMosaic.Lib.StableHlo.Run

set_option maxRecDepth 16384

noncomputable section

namespace Cert.Gcn

open Cert.KernelIdeal Cert.KernelIdeal.Gen
open Idealize.ShloMosaic Idealize.ShloMosaic.TcCoe Idealize.SL.Sem Idealize.ShloMosaic.StableHlo

variable {F : FTy → Type} [FloatOps F]

/-- The argument arrays. -/
def argRefs : List (Ref sig .tc) := [main_arg0, main_arg1, main_arg2, main_arg3, main_arg4, main_arg5, main_arg6, main_arg7, main_arg8, main_arg9, main_arg10, main_arg11, main_arg12, main_arg13, main_arg14]

/-- The buffers every later stretch and region only reads: the two self-looped edge lists, the edge weights, the arguments. -/
def keptRefs : List (Ref sig .tc) := [main_v5, main_v6, main_v29, main_arg0, main_arg1, main_arg2, main_arg3, main_arg4, main_arg5, main_arg6, main_arg7, main_arg8, main_arg9, main_arg10, main_arg11, main_arg12, main_arg13, main_arg14]

theorem argRefs_sub {r : Ref sig .tc} (hr : r ∈ argRefs) : r ∈ keptRefs := by
  simp only [argRefs, List.mem_cons, List.not_mem_nil, or_false] at hr
  rcases hr with rfl | rfl | rfl | rfl | rfl | rfl | rfl | rfl | rfl | rfl | rfl | rfl | rfl | rfl | rfl <;> simp [keptRefs]

/-- A buffer that no operation of a stretch writes holds after the stretch what it held before: each operation writes
    one buffer, and the buffer in question is none of them. -/
local macro "untouched" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

/-! ## No stretch writes a kept buffer (the first three: an argument) -/

theorem keep_hostOps0 (V : Valuation τ sig (Elt F)) {r : Ref sig .tc} (hr : r ∈ argRefs) :
    after (hostOps0 (F := F)) V (Proc.devRef .tc r) = V (Proc.devRef .tc r) := by
  simp only [argRefs, List.mem_cons, List.not_mem_nil, or_false] at hr
  rcases hr with rfl | rfl | rfl | rfl | rfl | rfl | rfl | rfl | rfl | rfl | rfl | rfl | rfl | rfl | rfl
  all_goals untouched hostOps0

theorem keep_hostOps0_1 (V : Valuation τ sig (Elt F)) {r : Ref sig .tc} (hr : r ∈ argRefs) :
    after (hostOps0_1 (F := F)) V (Proc.devRef .tc r) = V (Proc.devRef .tc r) := by
  simp only [argRefs, List.mem_cons, List.not_mem_nil, or_false] at hr
  rcases hr with rfl | rfl | rfl | rfl | rfl | rfl | rfl | rfl | rfl | rfl | rfl | rfl | rfl | rfl | rfl
  all_goals untouched hostOps0_1

theorem keep_hostOps0_2 (V : Valuation τ sig (Elt F)) {r : Ref sig .tc} (hr : r ∈ argRefs) :
    after (hostOps0_2 (F := F)) V (Proc.devRef .tc r) = V (Proc.devRef .tc r) := by
  simp only [argRefs, List.mem_cons, List.not_mem_nil, or_false] at hr
  rcases hr with rfl | rfl | rfl | rfl | rfl | rfl | rfl | rfl | rfl | rfl | rfl | rfl | rfl | rfl | rfl
  all_goals untouched hostOps0_2

theorem keep_hostOps1 (V : Valuation τ sig (Elt F)) {r : Ref sig .tc} (hr : r ∈ keptRefs) :
    after (hostOps1 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps1

theorem keep_hostOps1_1 (V : Valuation τ sig (Elt F)) {r : Ref sig .tc} (hr : r ∈ keptRefs) :
    after (hostOps1_1 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps1_1

theorem keep_hostOps2 (V : Valuation τ sig (Elt F)) {r : Ref sig .tc} (hr : r ∈ keptRefs) :
    after (hostOps2 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps2

theorem keep_hostOps2_1 (V : Valuation τ sig (Elt F)) {r : Ref sig .tc} (hr : r ∈ keptRefs) :
    after (hostOps2_1 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps2_1

theorem keep_hostOps3 (V : Valuation τ sig (Elt F)) {r : Ref sig .tc} (hr : r ∈ keptRefs) :
    after (hostOps3 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps3

theorem keep_hostOps3_1 (V : Valuation τ sig (Elt F)) {r : Ref sig .tc} (hr : r ∈ keptRefs) :
    after (hostOps3_1 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps3_1

theorem keep_hostOps4 (V : Valuation τ sig (Elt F)) {r : Ref sig .tc} (hr : r ∈ keptRefs) :
    after (hostOps4 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps4

theorem keep_hostOps4_1 (V : Valuation τ sig (Elt F)) {r : Ref sig .tc} (hr : r ∈ keptRefs) :
    after (hostOps4_1 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps4_1

theorem keep_hostOps4_2 (V : Valuation τ sig (Elt F)) {r : Ref sig .tc} (hr : r ∈ keptRefs) :
    after (hostOps4_2 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps4_2

theorem keep_hostOps4_3 (V : Valuation τ sig (Elt F)) {r : Ref sig .tc} (hr : r ∈ keptRefs) :
    after (hostOps4_3 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps4_3

theorem keep_hostOps4_4 (V : Valuation τ sig (Elt F)) {r : Ref sig .tc} (hr : r ∈ keptRefs) :
    after (hostOps4_4 (F := F)) V (Proc.devRef .tc r) = V (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals untouched hostOps4_4

/-! ## What each segment computes -/

section Prelude
variable (V : Valuation τ sig (Elt F))

/-- The contents after the first three stretches. -/
abbrev afterPrelude : Valuation τ sig (Elt F) := after hostOps0_2 (after hostOps0_1 (after hostOps0 V))

theorem prelude_sources : afterPrelude V (Proc.devRef .tc main_v5) = sFull (V (Proc.devRef .tc main_arg1)) := by
  dsimp only [afterPrelude, hostOps0, hostOps0_1, hostOps0_2]
  after_results_simp <;> rfl

theorem prelude_targets : afterPrelude V (Proc.devRef .tc main_v6) = dFull (V (Proc.devRef .tc main_arg1)) := by
  dsimp only [afterPrelude, hostOps0, hostOps0_1, hostOps0_2]
  after_results_simp <;> rfl

theorem prelude_weights : afterPrelude V (Proc.devRef .tc main_v29) = norm (F := F) (V (Proc.devRef .tc main_arg1)) := by
  dsimp only [afterPrelude, hostOps0, hostOps0_1, hostOps0_2]
  after_results_simp <;> rfl

theorem prelude_keeps {r : Ref sig .tc} (hr : r ∈ argRefs) : afterPrelude V (Proc.devRef .tc r) = V (Proc.devRef .tc r) :=
  (keep_hostOps0_2 _ hr).trans ((keep_hostOps0_1 _ hr).trans (keep_hostOps0 _ hr))

end Prelude

section Layers
variable (V : Valuation τ sig (Elt F))

/-- After the first region: its projected features `main_v30` aggregated with bias `main_arg4`. -/
theorem segment1_value : after hostOps1_1 (after hostOps1 V) (Proc.devRef .tc main_v47)
    = aggregateOf (F := F) (V (Proc.devRef .tc main_v5)) (V (Proc.devRef .tc main_v6)) (V (Proc.devRef .tc main_v29)) (V (Proc.devRef .tc main_v30)) (V (Proc.devRef .tc main_arg4)) := by
  dsimp only [hostOps1, hostOps1_1]
  after_results_simp <;> rfl

theorem segment1_keeps {r : Ref sig .tc} (hr : r ∈ keptRefs) :
    after hostOps1_1 (after hostOps1 V) (Proc.devRef .tc r) = V (Proc.devRef .tc r) :=
  (keep_hostOps1_1 _ hr).trans (keep_hostOps1 _ hr)

/-- After the second region: `main_v48` aggregated with bias `main_arg6`. -/
theorem segment2_value : after hostOps2_1 (after hostOps2 V) (Proc.devRef .tc main_v65)
    = aggregateOf (F := F) (V (Proc.devRef .tc main_v5)) (V (Proc.devRef .tc main_v6)) (V (Proc.devRef .tc main_v29)) (V (Proc.devRef .tc main_v48)) (V (Proc.devRef .tc main_arg6)) := by
  dsimp only [hostOps2, hostOps2_1]
  after_results_simp <;> rfl

theorem segment2_keeps {r : Ref sig .tc} (hr : r ∈ keptRefs) :
    after hostOps2_1 (after hostOps2 V) (Proc.devRef .tc r) = V (Proc.devRef .tc r) :=
  (keep_hostOps2_1 _ hr).trans (keep_hostOps2 _ hr)

/-- After the third region: `main_v66` aggregated with bias `main_arg8`. -/
theorem segment3_value : after hostOps3_1 (after hostOps3 V) (Proc.devRef .tc main_v83)
    = aggregateOf (F := F) (V (Proc.devRef .tc main_v5)) (V (Proc.devRef .tc main_v6)) (V (Proc.devRef .tc main_v29)) (V (Proc.devRef .tc main_v66)) (V (Proc.devRef .tc main_arg8)) := by
  dsimp only [hostOps3, hostOps3_1]
  after_results_simp <;> rfl

theorem segment3_keeps {r : Ref sig .tc} (hr : r ∈ keptRefs) :
    after hostOps3_1 (after hostOps3 V) (Proc.devRef .tc r) = V (Proc.devRef .tc r) :=
  (keep_hostOps3_1 _ hr).trans (keep_hostOps3 _ hr)

/-- The contents after the last five stretches. -/
abbrev afterTail : Valuation τ sig (Elt F) := after hostOps4_4 (after hostOps4_3 (after hostOps4_2 (after hostOps4_1 (after hostOps4 V))))

/-- After the fourth region: `main_v84` aggregated with bias `main_arg10`, then pooled per graph and read out. -/
theorem tail_value : afterTail V (Proc.devRef .tc main_v122)
    = readout (F := F) (V (Proc.devRef .tc main_arg2))
        (aggregateOf (F := F) (V (Proc.devRef .tc main_v5)) (V (Proc.devRef .tc main_v6)) (V (Proc.devRef .tc main_v29)) (V (Proc.devRef .tc main_v84)) (V (Proc.devRef .tc main_arg10)))
        (V (Proc.devRef .tc main_arg11)) (V (Proc.devRef .tc main_arg12)) (V (Proc.devRef .tc main_arg13)) (V (Proc.devRef .tc main_arg14)) := by
  dsimp only [afterTail, hostOps4, hostOps4_1, hostOps4_2, hostOps4_3, hostOps4_4]
  after_results_simp <;> rfl

end Layers

end Cert.Gcn

end
-- ==== Proof.MatmulEntry.lean ====
/- The dense projection `x · w` of a [100000,128] array by a [128,128] array as ONE function of the two arrays, and both
   ways of computing it read at an entry `(p, q)`: the product over the whole arrays and the product of one block of
   10000 rows are, entry by entry, the same sum over the contracted axis, `∑ k, x (p, k) * w (k, q)`. At the ideal
   values a narrowing of the format is the identity, a cast of a shape to itself is the identity, and an accumulator of
   zeros adds nothing, so the block's arithmetic is exactly that sum. -/
import proofs.«146081_j57818849738867_1_alg».proof.Proof.Gen.KernelIdeal.Skeleton
import proofs.«146081_j57818849738867_1_alg».proof.Proof.Gen.ReferenceIdeal
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx
open scoped BigOperators

/-- The whole product `x · w`: one contraction of the left array's axis 1 with the right array's axis 0, over the
    whole arrays. -/
noncomputable def wholeDot (x : (⟨Cert.ReferenceIdeal.S100000x128, .f32⟩ : BufTy).Contents (Elt Ideal))
    (w : (⟨Cert.ReferenceIdeal.S128x128, .f32⟩ : BufTy).Contents (Elt Ideal)) :
    (⟨Cert.ReferenceIdeal.S100000x128, .f32⟩ : BufTy).Contents (Elt Ideal) :=
  Host.dotGeneral (F := Ideal) (φ₁ := .f32) (φ₂ := .f32) Cert.ReferenceIdeal.dot_S100000x128_S128x128_S100000x128_1_0_0_1_n_n none x w

/-! ## The whole product's operand indices: row of the result and contraction position; contraction position and column -/

/-- The left operand is read at the result's row … -/
theorem whole_lhs_row (i : Cert.ReferenceIdeal.S100000x128.Idx)
    (κ : Cert.ReferenceIdeal.dot_S100000x128_S128x128_S100000x128_1_0_0_1_n_n.contr.Idx) :
    (Cert.ReferenceIdeal.dot_S100000x128_S128x128_S100000x128_1_0_0_1_n_n.lhsIdx i κ 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

/-- … and at the contraction position along its axis 1; -/
theorem whole_lhs_contr (i : Cert.ReferenceIdeal.S100000x128.Idx)
    (κ : Cert.ReferenceIdeal.dot_S100000x128_S128x128_S100000x128_1_0_0_1_n_n.contr.Idx) :
    (Cert.ReferenceIdeal.dot_S100000x128_S128x128_S100000x128_1_0_0_1_n_n.lhsIdx i κ 1).val = (κ ⟨0, by decide⟩).val :=
  Cert.ReferenceIdeal.dot_S100000x128_S128x128_S100000x128_1_0_0_1_n_n.lhsIdx_val_of_single rfl i κ

/-- the right operand at the contraction position along its axis 0 … -/
theorem whole_rhs_contr (i : Cert.ReferenceIdeal.S100000x128.Idx)
    (κ : Cert.ReferenceIdeal.dot_S100000x128_S128x128_S100000x128_1_0_0_1_n_n.contr.Idx) :
    (Cert.ReferenceIdeal.dot_S100000x128_S128x128_S100000x128_1_0_0_1_n_n.rhsIdx i κ 0).val = (κ ⟨0, by decide⟩).val :=
  Cert.ReferenceIdeal.dot_S100000x128_S128x128_S100000x128_1_0_0_1_n_n.rhsIdx_val_of_single rfl i κ

/-- … and at the result's column. -/
theorem whole_rhs_col (i : Cert.ReferenceIdeal.S100000x128.Idx)
    (κ : Cert.ReferenceIdeal.dot_S100000x128_S128x128_S100000x128_1_0_0_1_n_n.contr.Idx) :
    (Cert.ReferenceIdeal.dot_S100000x128_S128x128_S100000x128_1_0_0_1_n_n.rhsIdx i κ 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- THE WHOLE PRODUCT AT AN ENTRY: row `p` of `x` against column `q` of `w`. -/
theorem wholeDot_apply (x : (⟨Cert.ReferenceIdeal.S100000x128, .f32⟩ : BufTy).Contents (Elt Ideal))
    (w : (⟨Cert.ReferenceIdeal.S128x128, .f32⟩ : BufTy).Contents (Elt Ideal)) (p : Fin 100000) (q : Fin 128) :
    (wholeDot x w (ix2 p q) : EReal) = ∑ k : Fin 128, (x (ix2 p k) : EReal) * (w (ix2 k q) : EReal) := by
  unfold wholeDot
  simp only [Host.dotGeneral]
  rw [Ideal.dotGeneral_apply,
    ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q)
      ((contrEquiv1 Cert.ReferenceIdeal.dot_S100000x128_S128x128_S100000x128_1_0_0_1_n_n 128 rfl rfl).symm k) = ix2 p k :=
    funext fun a => Fin.ext (by
      match a with
      | ⟨0, _⟩ => exact whole_lhs_row _ _
      | ⟨1, _⟩ => exact (whole_lhs_contr _ _).trans hk)
  have er : Cert.ReferenceIdeal.dot_S100000x128_S128x128_S100000x128_1_0_0_1_n_n.rhsIdx (ix2 p q)
      ((contrEquiv1 Cert.ReferenceIdeal.dot_S100000x128_S128x128_S100000x128_1_0_0_1_n_n 128 rfl rfl).symm k) = ix2 k q :=
    funext fun a => Fin.ext (by
      match a with
      | ⟨0, _⟩ => exact (whole_rhs_contr _ _).trans hk
      | ⟨1, _⟩ => exact whole_rhs_col _ _)
  rw [el, er]

/-! ## One block's product: the same operand indices, the left operand 10000 rows long -/

/-- The left block is read at the result's row … -/
theorem block_lhs_row (i : Cert.KernelIdeal.S10000x128.Idx)
    (κ : Cert.KernelIdeal.dot_S10000x128_S128x128_S10000x128_1_0_0_1_n_n.contr.Idx) :
    (Cert.KernelIdeal.dot_S10000x128_S128x128_S10000x128_1_0_0_1_n_n.lhsIdx i κ 0).val = (i 0).val := by
  unfold DotDims.lhsIdx
  rw [dif_neg (show ¬(0 : Fin Cert.KernelIdeal.S10000x128.rank) ∈ Cert.KernelIdeal.dot_S10000x128_S128x128_S10000x128_1_0_0_1_n_n.lhsBatch by decide),
    dif_pos (show (0 : Fin Cert.KernelIdeal.S10000x128.rank) ∈ Cert.KernelIdeal.dot_S10000x128_S128x128_S10000x128_1_0_0_1_n_n.lhsNonContracting by decide)]
  rfl

/-- … and at the contraction position along its axis 1; -/
theorem block_lhs_contr (i : Cert.KernelIdeal.S10000x128.Idx)
    (κ : Cert.KernelIdeal.dot_S10000x128_S128x128_S10000x128_1_0_0_1_n_n.contr.Idx) :
    (Cert.KernelIdeal.dot_S10000x128_S128x128_S10000x128_1_0_0_1_n_n.lhsIdx i κ 1).val = (κ ⟨0, by decide⟩).val :=
  Cert.KernelIdeal.dot_S10000x128_S128x128_S10000x128_1_0_0_1_n_n.lhsIdx_val_of_single rfl i κ

/-- the right operand at the contraction position along its axis 0 … -/
theorem block_rhs_contr (i : Cert.KernelIdeal.S10000x128.Idx)
    (κ : Cert.KernelIdeal.dot_S10000x128_S128x128_S10000x128_1_0_0_1_n_n.contr.Idx) :
    (Cert.KernelIdeal.dot_S10000x128_S128x128_S10000x128_1_0_0_1_n_n.rhsIdx i κ 0).val = (κ ⟨0, by decide⟩).val :=
  Cert.KernelIdeal.dot_S10000x128_S128x128_S10000x128_1_0_0_1_n_n.rhsIdx_val_of_single rfl i κ

/-- … and at the result's column. -/
theorem block_rhs_col (i : Cert.KernelIdeal.S10000x128.Idx)
    (κ : Cert.KernelIdeal.dot_S10000x128_S128x128_S10000x128_1_0_0_1_n_n.contr.Idx) :
    (Cert.KernelIdeal.dot_S10000x128_S128x128_S10000x128_1_0_0_1_n_n.rhsIdx i κ 1).val = (i 1).val := by
  unfold DotDims.rhsIdx
  rw [dif_neg (show ¬(1 : Fin Cert.KernelIdeal.S128x128.rank) ∈ Cert.KernelIdeal.dot_S10000x128_S128x128_S10000x128_1_0_0_1_n_n.rhsBatch by decide),
    dif_pos (show (1 : Fin Cert.KernelIdeal.S128x128.rank) ∈ Cert.KernelIdeal.dot_S10000x128_S128x128_S10000x128_1_0_0_1_n_n.rhsNonContracting by decide)]
  rfl

/-- A block's product into an accumulator of zeros, at an entry: row `p` of the block against column `q` of `w`,
    whatever the operands' formats (at the ideal values every format holds the same extended reals). -/
theorem blockDot_apply {φ₁ φ₂ : FTy} (a : FVec Ideal Cert.KernelIdeal.S10000x128 φ₁) (b : FVec Ideal Cert.KernelIdeal.S128x128 φ₂)
    (p : Fin 10000) (q : Fin 128) :
    (matmul Cert.KernelIdeal.dot_S10000x128_S128x128_S10000x128_1_0_0_1_n_n none a b
        (constant Cert.KernelIdeal.S10000x128 .f32 0x00000000#32) (ix2 p q) : EReal)
      = ∑ k : Fin 128, (a (ix2 p k) : EReal) * (b (ix2 k q) : EReal) := by
  simp only [matmul]
  rw [Ideal.matmul_constant_zero_apply,
    ← Equiv.sum_comp (contrEquiv1 Cert.KernelIdeal.dot_S10000x128_S128x128_S10000x128_1_0_0_1_n_n 128 rfl rfl).symm]
  refine Finset.sum_congr rfl fun k _ => ?_
  have hk := contrEquiv1_symm_val Cert.KernelIdeal.dot_S10000x128_S128x128_S10000x128_1_0_0_1_n_n 128 rfl rfl k
  have el : Cert.KernelIdeal.dot_S10000x128_S128x128_S10000x128_1_0_0_1_n_n.lhsIdx (ix2 p q)
      ((contrEquiv1 Cert.KernelIdeal.dot_S10000x128_S128x128_S10000x128_1_0_0_1_n_n 128 rfl rfl).symm k) = ix2 p k :=
    funext fun a => Fin.ext (by
      match a with
      | ⟨0, _⟩ => exact block_lhs_row _ _
      | ⟨1, _⟩ => exact (block_lhs_contr _ _).trans hk)
  have er : Cert.KernelIdeal.dot_S10000x128_S128x128_S10000x128_1_0_0_1_n_n.rhsIdx (ix2 p q)
      ((contrEquiv1 Cert.KernelIdeal.dot_S10000x128_S128x128_S10000x128_1_0_0_1_n_n 128 rfl rfl).symm k) = ix2 k q :=
    funext fun a => Fin.ext (by
      match a with
      | ⟨0, _⟩ => exact (block_rhs_contr _ _).trans hk
      | ⟨1, _⟩ => exact block_rhs_col _ _)
  rw [el, er]

/-! ## The kernel body's arithmetic at an entry -/

/-- The body loads and stores whole blocks: the offsets of those accesses are zero on both axes. -/
theorem origin2 : (![0, 0] : Fin 2 → Nat) = fun _ => 0 := funext fun a => by fin_cases a <;> rfl

/-- REGION 0's body: both operands narrowed (the identity here), multiplied into zeros. -/
theorem block_entry0 (x0 : Vec Ideal Cert.KernelIdeal.S10000x128 .f32) (x1 : Vec Ideal Cert.KernelIdeal.S128x128 .f32)
    (p : Fin 10000) (q : Fin 128) :
    (Cert.KernelIdeal.Gen.k0_pay1 x0 x1 (ix2 p q) : EReal) = ∑ k : Fin 128, (x0 (ix2 p k) : EReal) * (x1 (ix2 k q) : EReal) := by
  unfold Cert.KernelIdeal.Gen.k0_pay1
  exact blockDot_apply _ _ p q

/-- REGIONS 1–3's body: the same after a cast of the left block's shape to itself. -/
theorem block_entry1 (x0 : Vec Ideal Cert.KernelIdeal.S10000x128 .f32) (x1 : Vec Ideal Cert.KernelIdeal.S128x128 .f32)
    (p : Fin 10000) (q : Fin 128) :
    (Cert.KernelIdeal.Gen.k1_pay1 x0 x1 (ix2 p q) : EReal) = ∑ k : Fin 128, (x0 (ix2 p k) : EReal) * (x1 (ix2 k q) : EReal) := by
  unfold Cert.KernelIdeal.Gen.k1_pay1
  simp only [shapeCast_self]
  exact blockDot_apply _ _ p q

theorem block_entry2 (x0 : Vec Ideal Cert.KernelIdeal.S10000x128 .f32) (x1 : Vec Ideal Cert.KernelIdeal.S128x128 .f32)
    (p : Fin 10000) (q : Fin 128) :
    (Cert.KernelIdeal.Gen.k2_pay1 x0 x1 (ix2 p q) : EReal) = ∑ k : Fin 128, (x0 (ix2 p k) : EReal) * (x1 (ix2 k q) : EReal) := by
  unfold Cert.KernelIdeal.Gen.k2_pay1
  simp only [shapeCast_self]
  exact blockDot_apply _ _ p q

theorem block_entry3 (x0 : Vec Ideal Cert.KernelIdeal.S10000x128 .f32) (x1 : Vec Ideal Cert.KernelIdeal.S128x128 .f32)
    (p : Fin 10000) (q : Fin 128) :
    (Cert.KernelIdeal.Gen.k3_pay1 x0 x1 (ix2 p q) : EReal) = ∑ k : Fin 128, (x0 (ix2 p k) : EReal) * (x1 (ix2 k q) : EReal) := by
  unfold Cert.KernelIdeal.Gen.k3_pay1
  simp only [shapeCast_self]
  exact blockDot_apply _ _ p q

end Cert.Gcn

end
-- ==== Proof.Region0Value.lean ====
/- Region 0 of the kernel's program, read off its pipeline: each of the ten grid points writes back the product of one
   block of 10000 rows of the left array by the whole right array; the ten blocks tile the result array; so the result
   array ends at the whole product, one function of the two arrays as the region finds them. -/
import proofs.«146081_j57818849738867_1_alg».proof.Proof.Gen.KernelIdeal.Frame
import proofs.«146081_j57818849738867_1_alg».proof.Proof.MatmulEntry
import Idealize.ShloMosaic.Lib.Pipeline.Value

set_option maxRecDepth 16384

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! # Region 0: the array `main_v30` ends at the whole product of `main_arg0` by `main_arg3` -/

/-- The three index maps over the ten grid points: the left operand's block and the result's block at point `t` are
    block row `t`, block column 0; the right operand's block is always block (0, 0), the whole array. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `10000 t … 10000 t + 9999` of the left array. -/
theorem lhs_block0 (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → Elt Ideal .f32) i := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The right operand's block at every point is the whole right array. -/
theorem rhs_block0 (c : Dev nD) (t : Fin cfg0.N) (y : S128x128.Idx) :
    (iblk0 V c 1 t : Vec Ideal S128x128 .f32) y = (V c main_arg3 : S128x128.Idx → Elt Ideal .f32) y := by
  obtain ⟨-, -, e2, e3, -⟩ := index_facts0 t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The body's product of the two blocks at point `t`, at entry `y`, is the whole product at row `10000 t + y₀`,
    column `y₁`: the same sum over the contracted axis, the blocks read where they sit in the arrays. -/
theorem block_is_rows0 (c : Dev nD) (t : Fin cfg0.N) (y : S10000x128.Idx) (i : S100000x128.Idx)
    (h0 : (i 0).val = 10000 * t.val + (y 0).val) (h1 : (i 1).val = (y 1).val) :
    (k0_pay1 (iblk0 V c 0 t) (iblk0 V c 1 t) y : EReal) = wholeDot (V c main_arg0) (V c main_arg3) i := by
  obtain ⟨p, q, rfl⟩ : ∃ (p : Fin 10000) (q : Fin 128), y = ix2 p q := ⟨y 0, y 1, eq_ix2 y⟩
  have hP : 10000 * t.val + p.val < 100000 := by
    have ht : t.val < 10 := lt_of_lt_of_eq t.isLt N_0
    have hp : p.val < 10000 := p.isLt
    omega
  obtain rfl : i = ix2 ⟨10000 * t.val + p.val, hP⟩ q := funext fun a => Fin.ext (by
    match a with
    | ⟨0, _⟩ => exact h0
    | ⟨1, _⟩ => exact h1)
  refine (block_entry0 (iblk0 V c 0 t) (iblk0 V c 1 t) p q).trans ?_
  refine Eq.trans ?_ (wholeDot_apply (V c main_arg0) (V c main_arg3) ⟨10000 * t.val + p.val, hP⟩ q).symm
  refine Finset.sum_congr rfl fun k _ => ?_
  exact congrArg₂ (· * ·) (lhs_block0 V c t (ix2 p k) (ix2 ⟨10000 * t.val + p.val, hP⟩ k) rfl rfl)
    (rhs_block0 V c t (ix2 k q))

/-- WHAT POINT `t` WRITES BACK is block `t` of the whole product of the two arrays as the region finds them. -/
theorem flushed0 (c : Dev nD) (t : Fin cfg0.N) :
    (dat0 V c).flushed 2 t
      = ((cfg0.win 2).blk t).view.read (Elt Ideal) (wholeDot (V c main_arg0) (V c main_arg3)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨-, -, -, -, e4, e5⟩ := index_facts0 t
  funext j
  show k0_pay1 (iblk0 V c 0 t) (iblk0 V c 1 t) ((cfg0.win 2).xinj (grid0.coords t) j)
    = wholeDot (V c main_arg0) (V c main_arg3) (((cfg0.win 2).blk t).view.emb j)
  refine block_is_rows0 V c t _ _ ?_ ?_
  · show win0_2.index t (0 : Fin 2) * 10000 + 1 * (j 0).val = 10000 * t.val + (j 0).val
    rw [e4]; omega
  · show win0_2.index t (1 : Fin 2) * 128 + 1 * (j 1).val = (j 1).val
    rw [e5]; omega

/-- An index of the result array is in point `t`'s block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- The ten blocks of 10000 rows cover the 100000 rows: row `r` is in the block of point `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e4, e5⟩ := index_facts0 t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- THE RESULT ARRAY after region 0's ten points: the whole product of the two arrays the region was entered with. -/
theorem region0_value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat0 (F := Ideal) V c).arrAt 2 Cert.KernelIdeal.cfg0.N
      = wholeDot (V c Cert.KernelIdeal.main_arg0) (V c Cert.KernelIdeal.main_arg3) :=
  (dat0 V c).arrAt_eq_of_cover 2 (wholeDot (V c main_arg0) (V c main_arg3)) (fun t _ => flushed0 V c t) cover0

end Cert.Gcn

end
-- ==== Proof.Region1Value.lean ====
/- Region 1 of the kernel's program, read off its pipeline: each of the ten grid points writes back the product of one
   block of 10000 rows of the left array by the whole right array; the ten blocks tile the result array; so the result
   array ends at the whole product, one function of the two arrays as the region finds them. -/
import proofs.«146081_j57818849738867_1_alg».proof.Proof.Gen.KernelIdeal.Frame
import proofs.«146081_j57818849738867_1_alg».proof.Proof.MatmulEntry
import Idealize.ShloMosaic.Lib.Pipeline.Value

set_option maxRecDepth 16384

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! # Region 1: the array `main_v48` ends at the whole product of `main_v47` by `main_arg5` -/

/-- The three index maps over the ten grid points: the left operand's block and the result's block at point `t` are
    block row `t`, block column 0; the right operand's block is always block (0, 0), the whole array. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `10000 t … 10000 t + 9999` of the left array. -/
theorem lhs_block1 (c : Dev nD) (t : Fin cfg1.N) (y : S10000x128.Idx) (i : S100000x128.Idx)
    (h0 : (i 0).val = 10000 * t.val + (y 0).val) (h1 : (i 1).val = (y 1).val) :
    (iblk1 V c 0 t : Vec Ideal S10000x128 .f32) y = (V c main_v47 : S100000x128.Idx → Elt Ideal .f32) i := by
  obtain ⟨e0, e1, -⟩ := index_facts1 t
  unfold iblk1
  rw [View.read_apply]
  show V c main_v47 _ = V c main_v47 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The right operand's block at every point is the whole right array. -/
theorem rhs_block1 (c : Dev nD) (t : Fin cfg1.N) (y : S128x128.Idx) :
    (iblk1 V c 1 t : Vec Ideal S128x128 .f32) y = (V c main_arg5 : S128x128.Idx → Elt Ideal .f32) y := by
  obtain ⟨-, -, e2, e3, -⟩ := index_facts1 t
  unfold iblk1
  rw [View.read_apply]
  show V c main_arg5 _ = V c main_arg5 _
  congr 1
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- The body's product of the two blocks at point `t`, at entry `y`, is the whole product at row `10000 t + y₀`,
    column `y₁`: the same sum over the contracted axis, the blocks read where they sit in the arrays. -/
theorem block_is_rows1 (c : Dev nD) (t : Fin cfg1.N) (y : S10000x128.Idx) (i : S100000x128.Idx)
    (h0 : (i 0).val = 10000 * t.val + (y 0).val) (h1 : (i 1).val = (y 1).val) :
    (k1_pay1 (iblk1 V c 0 t) (iblk1 V c 1 t) y : EReal) = wholeDot (V c main_v47) (V c main_arg5) i := by
  obtain ⟨p, q, rfl⟩ : ∃ (p : Fin 10000) (q : Fin 128), y = ix2 p q := ⟨y 0, y 1, eq_ix2 y⟩
  have hP : 10000 * t.val + p.val < 100000 := by
    have ht : t.val < 10 := lt_of_lt_of_eq t.isLt N_1
    have hp : p.val < 10000 := p.isLt
    omega
  obtain rfl : i = ix2 ⟨10000 * t.val + p.val, hP⟩ q := funext fun a => Fin.ext (by
    match a with
    | ⟨0, _⟩ => exact h0
    | ⟨1, _⟩ => exact h1)
  refine (block_entry1 (iblk1 V c 0 t) (iblk1 V c 1 t) p q).trans ?_
  refine Eq.trans ?_ (wholeDot_apply (V c main_v47) (V c main_arg5) ⟨10000 * t.val + p.val, hP⟩ q).symm
  refine Finset.sum_congr rfl fun k _ => ?_
  exact congrArg₂ (· * ·) (lhs_block1 V c t (ix2 p k) (ix2 ⟨10000 * t.val + p.val, hP⟩ k) rfl rfl)
    (rhs_block1 V c t (ix2 k q))

/-- WHAT POINT `t` WRITES BACK is block `t` of the whole product of the two arrays as the region finds them. -/
theorem flushed1 (c : Dev nD) (t : Fin cfg1.N) :
    (dat1 V c).flushed 2 t
      = ((cfg1.win 2).blk t).view.read (Elt Ideal) (wholeDot (V c main_v47) (V c main_arg5)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S128x128) origin2]
  obtain ⟨-, -, -, -, e4, e5⟩ := index_facts1 t
  funext j
  show k1_pay1 (iblk1 V c 0 t) (iblk1 V c 1 t) ((cfg1.win 2).xinj (grid1.coords t) j)
    = wholeDot (V c main_v47) (V c main_arg5) (((cfg1.win 2).blk t).view.emb j)
  refine block_is_rows1 V c t _ _ ?_ ?_
  · show win1_2.index t (0 : Fin 2) * 10000 + 1 * (j 0).val = 10000 * t.val + (j 0).val
    rw [e4]; omega
  · show win1_2.index t (1 : Fin 2) * 128 + 1 * (j 1).val = (j 1).val
    rw [e5]; omega

/-- An index of the result array is in point `t`'s block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v48).slice (win1_2.rect t)).set ↔ _
  rw [View.set_slice_whole, Rect.mem_set_unit]
  exact Iff.rfl

/-- The ten blocks of 10000 rows cover the 100000 rows: row `r` is in the block of point `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e4, e5⟩ := index_facts1 t
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 128 ≤ (i 1).val ∧ (i 1).val < win1_2.index t (1 : Fin 2) * 128 + 128
    rw [e5]; omega

/-- THE RESULT ARRAY after region 1's ten points: the whole product of the two arrays the region was entered with. -/
theorem region1_value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat1 (F := Ideal) V c).arrAt 2 Cert.KernelIdeal.cfg1.N
      = wholeDot (V c Cert.KernelIdeal.main_v47) (V c Cert.KernelIdeal.main_arg5) :=
  (dat1 V c).arrAt_eq_of_cover 2 (wholeDot (V c main_v47) (V c main_arg5)) (fun t _ => flushed1 V c t) cover1

end Cert.Gcn

end
-- ==== Proof.Region2Value.lean ====
/- Region 2 of the kernel's program, read off its pipeline: each of the ten grid points writes back the product of one
   block of 10000 rows of the left array by the whole right array; the ten blocks tile the result array; so the result
   array ends at the whole product, one function of the two arrays as the region finds them. -/
import proofs.«146081_j57818849738867_1_alg».proof.Proof.Gen.KernelIdeal.Frame
import proofs.«146081_j57818849738867_1_alg».proof.Proof.MatmulEntry
import Idealize.ShloMosaic.Lib.Pipeline.Value

set_option maxRecDepth 16384

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! # Region 2: the array `main_v66` ends at the whole product of `main_v65` by `main_arg7` -/

/-- The three index maps over the ten grid points: the left operand's block and the result's block at point `t` are
    block row `t`, block column 0; the right operand's block is always block (0, 0), the whole array. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `10000 t … 10000 t + 9999` of the left array. -/
theorem lhs_block2 (c : Dev nD) (t : Fin cfg2.N) (y : S10000x128.Idx) (i : S100000x128.Idx)
    (h0 : (i 0).val = 10000 * t.val + (y 0).val) (h1 : (i 1).val = (y 1).val) :
    (iblk2 V c 0 t : Vec Ideal S10000x128 .f32) y = (V c main_v65 : S100000x128.Idx → Elt Ideal .f32) i := by
  obtain ⟨e0, e1, -⟩ := index_facts2 t
  unfold iblk2
  rw [View.read_apply]
  show V c main_v65 _ = V c main_v65 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

/-- The right operand's block at every point is the whole right array. -/
theorem rhs_block2 (c : Dev nD) (t : Fin cfg2.N) (y : S128x128.Idx) :
    (iblk2 V c 1 t : Vec Ideal S128x128 .f32) y = (V c main_arg7 : S128x128.Idx → Elt Ideal .f32) y := by
  obtain ⟨-, -, e2, e3, -⟩ := index_facts2 t
  unfold iblk2
  rw [View.read_apply]
  show V c main_arg7 _ = V c main_arg7 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- The body's product of the two blocks at point `t`, at entry `y`, is the whole product at row `10000 t + y₀`,
    column `y₁`: the same sum over the contracted axis, the blocks read where they sit in the arrays. -/
theorem block_is_rows2 (c : Dev nD) (t : Fin cfg2.N) (y : S10000x128.Idx) (i : S100000x128.Idx)
    (h0 : (i 0).val = 10000 * t.val + (y 0).val) (h1 : (i 1).val = (y 1).val) :
    (k2_pay1 (iblk2 V c 0 t) (iblk2 V c 1 t) y : EReal) = wholeDot (V c main_v65) (V c main_arg7) i := by
  obtain ⟨p, q, rfl⟩ : ∃ (p : Fin 10000) (q : Fin 128), y = ix2 p q := ⟨y 0, y 1, eq_ix2 y⟩
  have hP : 10000 * t.val + p.val < 100000 := by
    have ht : t.val < 10 := lt_of_lt_of_eq t.isLt N_2
    have hp : p.val < 10000 := p.isLt
    omega
  obtain rfl : i = ix2 ⟨10000 * t.val + p.val, hP⟩ q := funext fun a => Fin.ext (by
    match a with
    | ⟨0, _⟩ => exact h0
    | ⟨1, _⟩ => exact h1)
  refine (block_entry2 (iblk2 V c 0 t) (iblk2 V c 1 t) p q).trans ?_
  refine Eq.trans ?_ (wholeDot_apply (V c main_v65) (V c main_arg7) ⟨10000 * t.val + p.val, hP⟩ q).symm
  refine Finset.sum_congr rfl fun k _ => ?_
  exact congrArg₂ (· * ·) (lhs_block2 V c t (ix2 p k) (ix2 ⟨10000 * t.val + p.val, hP⟩ k) rfl rfl)
    (rhs_block2 V c t (ix2 k q))

/-- WHAT POINT `t` WRITES BACK is block `t` of the whole product of the two arrays as the region finds them. -/
theorem flushed2 (c : Dev nD) (t : Fin cfg2.N) :
    (dat2 V c).flushed 2 t
      = ((cfg2.win 2).blk t).view.read (Elt Ideal) (wholeDot (V c main_v65) (V c main_arg7)) := by
  show (cfg2.win 2).cut (grid2.coords t) ((dat2 V c).after 2 t) = _
  rw [after2_2]
  unfold out2_2
  rw [View.canon_unit_zero origin2]
  simp only [View.ld_unit_zero (S := S10000x128) origin2, View.ld_unit_zero (S := S128x128) origin2]
  obtain ⟨-, -, -, -, e4, e5⟩ := index_facts2 t
  funext j
  show k2_pay1 (iblk2 V c 0 t) (iblk2 V c 1 t) ((cfg2.win 2).xinj (grid2.coords t) j)
    = wholeDot (V c main_v65) (V c main_arg7) (((cfg2.win 2).blk t).view.emb j)
  refine block_is_rows2 V c t _ _ ?_ ?_
  · show win2_2.index t (0 : Fin 2) * 10000 + 1 * (j 0).val = 10000 * t.val + (j 0).val
    rw [e4]; omega
  · show win2_2.index t (1 : Fin 2) * 128 + 1 * (j 1).val = (j 1).val
    rw [e5]; omega

/-- An index of the result array is in point `t`'s block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v66).slice (win2_2.rect t)).set ↔ _
  rw [View.set_slice_whole, Rect.mem_set_unit]
  exact Iff.rfl

/-- The ten blocks of 10000 rows cover the 100000 rows: row `r` is in the block of point `r / 10000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, e4, e5⟩ := index_facts2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 128 ≤ (i 1).val ∧ (i 1).val < win2_2.index t (1 : Fin 2) * 128 + 128
    rw [e5]; omega

/-- THE RESULT ARRAY after region 2's ten points: the whole product of the two arrays the region was entered with. -/
theorem region2_value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat2 (F := Ideal) V c).arrAt 2 Cert.KernelIdeal.cfg2.N
      = wholeDot (V c Cert.KernelIdeal.main_v65) (V c Cert.KernelIdeal.main_arg7) :=
  (dat2 V c).arrAt_eq_of_cover 2 (wholeDot (V c main_v65) (V c main_arg7)) (fun t _ => flushed2 V c t) cover2

end Cert.Gcn

end
-- ==== Proof.Region3Value.lean ====
/- Region 3 of the kernel's program, read off its pipeline: each of the ten grid points writes back the product of one
   block of 10000 rows of the left array by the whole right array; the ten blocks tile the result array; so the result
   array ends at the whole product, one function of the two arrays as the region finds them. -/
import proofs.«146081_j57818849738867_1_alg».proof.Proof.Gen.KernelIdeal.Frame
import proofs.«146081_j57818849738867_1_alg».proof.Proof.MatmulEntry
import Idealize.ShloMosaic.Lib.Pipeline.Value

set_option maxRecDepth 16384

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! # Region 3: the array `main_v84` ends at the whole product of `main_v83` by `main_arg9` -/

/-- The three index maps over the ten grid points: the left operand's block and the result's block at point `t` are
    block row `t`, block column 0; the right operand's block is always block (0, 0), the whole array. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` is rows `10000 t … 10000 t + 9999` of the left array. -/
theorem lhs_block3 (c : Dev nD) (t : Fin cfg3.N) (y : S10000x128.Idx) (i : S100000x128.Idx)
    (h0 : (i 0).val = 10000 * t.val + (y 0).val) (h1 : (i 1).val = (y 1).val) :
    (iblk3 V c 0 t : Vec Ideal S10000x128 .f32) y = (V c main_v83 : S100000x128.Idx → Elt Ideal .f32) i := by
  obtain ⟨e0, e1, -⟩ := index_facts3 t
  unfold iblk3
  rw [View.read_apply]
  show V c main_v83 _ = V c main_v83 _
  congr 1
  funext a
  apply Fin.ext
  match a with
  | ⟨0, _⟩ => show win3_0.index t (0 : Fin 2) * 10000 + 1 * (y 0).val = (i 0).val; rw [e0, h0]; omega
  | ⟨1, _⟩ => show win3_0.index t (1 : Fin 2) * 128 + 1 * (y 1).val = (i 1).val; rw [e1, h1]; omega

/-- The right operand's block at every point is the whole right array. -/
theorem rhs_block3 (c : Dev nD) (t : Fin cfg3.N) (y : S128x128.Idx) :
    (iblk3 V c 1 t : Vec Ideal S128x128 .f32) y = (V c main_arg9 : S128x128.Idx → Elt Ideal .f32) y := by
  obtain ⟨-, -, e2, e3, -⟩ := index_facts3 t
  unfold iblk3
  rw [View.read_apply]
  show V c main_arg9 _ = V c main_arg9 _
  congr 1
  funext a
  apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- The body's product of the two blocks at point `t`, at entry `y`, is the whole product at row `10000 t + y₀`,
    column `y₁`: the same sum over the contracted axis, the blocks read where they sit in the arrays. -/
theorem block_is_rows3 (c : Dev nD) (t : Fin cfg3.N) (y : S10000x128.Idx) (i : S100000x128.Idx)
    (h0 : (i 0).val = 10000 * t.val + (y 0).val) (h1 : (i 1).val = (y 1).val) :
    (k3_pay1 (iblk3 V c 0 t) (iblk3 V c 1 t) y : EReal) = wholeDot (V c main_v83) (V c main_arg9) i := by
  obtain ⟨p, q, rfl⟩ : ∃ (p : Fin 10000) (q : Fin 128), y = ix2 p q := ⟨y 0, y 1, eq_ix2 y⟩
  have hP : 10000 * t.val + p.val < 100000 := by
    have ht : t.val < 10 := lt_of_lt_of_eq t.isLt N_3
    have hp : p.val < 10000 := p.isLt
    omega
  obtain rfl : i = ix2 ⟨10000 * t.val + p.val, hP⟩ q := funext fun a => Fin.ext (by
    match a with
    | ⟨0, _⟩ => exact h0
    | ⟨1, _⟩ => exact h1)
  refine (block_entry3 (iblk3 V c 0 t) (iblk3 V c 1 t) p q).trans ?_
  refine Eq.trans ?_ (wholeDot_apply (V c main_v83) (V c main_arg9) ⟨10000 * t.val + p.val, hP⟩ q).symm
  refine Finset.sum_congr rfl fun k _ => ?_
  exact congrArg₂ (· * ·) (lhs_block3 V c t (ix2 p k) (ix2 ⟨10000 * t.val + p.val, hP⟩ k) rfl rfl)
    (rhs_block3 V c t (ix2 k q))

/-- WHAT POINT `t` WRITES BACK is block `t` of the whole product of the two arrays as the region finds them. -/
theorem flushed3 (c : Dev nD) (t : Fin cfg3.N) :
    (dat3 V c).flushed 2 t
      = ((cfg3.win 2).blk t).view.read (Elt Ideal) (wholeDot (V c main_v83) (V c main_arg9)) := by
  show (cfg3.win 2).cut (grid3.coords t) ((dat3 V c).after 2 t) = _
  rw [after3_2]
  unfold out3_2
  rw [View.canon_unit_zero origin2]
  simp only [View.ld_unit_zero (S := S10000x128) origin2, View.ld_unit_zero (S := S128x128) origin2]
  obtain ⟨-, -, -, -, e4, e5⟩ := index_facts3 t
  funext j
  show k3_pay1 (iblk3 V c 0 t) (iblk3 V c 1 t) ((cfg3.win 2).xinj (grid3.coords t) j)
    = wholeDot (V c main_v83) (V c main_arg9) (((cfg3.win 2).blk t).view.emb j)
  refine block_is_rows3 V c t _ _ ?_ ?_
  · show win3_2.index t (0 : Fin 2) * 10000 + 1 * (j 0).val = 10000 * t.val + (j 0).val
    rw [e4]; omega
  · show win3_2.index t (1 : Fin 2) * 128 + 1 * (j 1).val = (j 1).val
    rw [e5]; omega

/-- An index of the result array is in point `t`'s block iff each coordinate is in the block's range on its axis. -/
theorem mem_block3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v84).slice (win3_2.rect t)).set ↔ _
  rw [View.set_slice_whole, Rect.mem_set_unit]
  exact Iff.rfl

/-- The ten blocks of 10000 rows cover the 100000 rows: row `r` is in the block of point `r / 10000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, e4, e5⟩ := index_facts3 t
  refine ⟨t, flush3_2 t, ?_⟩
  rw [mem_block3]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 128 ≤ (i 1).val ∧ (i 1).val < win3_2.index t (1 : Fin 2) * 128 + 128
    rw [e5]; omega

/-- THE RESULT ARRAY after region 3's ten points: the whole product of the two arrays the region was entered with. -/
theorem region3_value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat3 (F := Ideal) V c).arrAt 2 Cert.KernelIdeal.cfg3.N
      = wholeDot (V c Cert.KernelIdeal.main_v83) (V c Cert.KernelIdeal.main_arg9) :=
  (dat3 V c).arrAt_eq_of_cover 2 (wholeDot (V c main_v83) (V c main_arg9)) (fun t _ => flushed3 V c t) cover3

end Cert.Gcn

end
-- ==== Proof.RegionValue.lean ====
/- The four regions' result arrays, each the whole product of the two arrays its region was entered with:
   `Cert.Gcn.region0_value` … `Cert.Gcn.region3_value`. -/
import proofs.«146081_j57818849738867_1_alg».proof.Proof.Region0Value
import proofs.«146081_j57818849738867_1_alg».proof.Proof.Region1Value
import proofs.«146081_j57818849738867_1_alg».proof.Proof.Region2Value
import proofs.«146081_j57818849738867_1_alg».proof.Proof.Region3Value
-- ==== Proof.KernelValue.lean ====
/-
  The idealized kernel computes `network`.

  Walking the boundaries of the kernel's program from the launch to the return: the first stretches leave the
  self-looped edge lists and the edge weights of the edge array; each product region leaves in its output array the whole
  product of its two input arrays (ten row blocks of 10000 rows, each the product of that block of rows with the whole
  weight matrix); each pair of stretches after a region aggregates that product into the next layer's features; the last
  stretches aggregate once more and read out.  Nothing ever rewrites an argument, the edge lists or the weights.  So the
  returned buffer holds `network` of the arguments as launched.
-/
import proofs.«146081_j57818849738867_1_alg».proof.Proof.Gen.KernelIdeal.Frame
import proofs.«146081_j57818849738867_1_alg».proof.Proof.HostSegments
import proofs.«146081_j57818849738867_1_alg».proof.Proof.RegionValue
import Idealize.ShloMosaic.PureOps.Ideal

set_option maxRecDepth 16384

noncomputable section

namespace Cert.Gcn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The kept buffers, boundary by boundary -/

/-- At the first region's entry every argument is as launched. -/
theorem arg_W3 {r : Ref sig .tc} (hr : r ∈ argRefs) :
    W3 m ρ c (Proc.devRef .tc r) = W0 m ρ c (Proc.devRef .tc r) :=
  prelude_keeps (W0 m ρ c) hr

/-- The first product region writes its output array only; an input array of the region is read back as it was entered. -/
theorem kept_W4 {r : Ref sig .tc} (hr : r ∈ keptRefs) :
    W4 m ρ c (Proc.devRef .tc r) = W3 m ρ c (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

theorem kept_W6 {r : Ref sig .tc} (hr : r ∈ keptRefs) :
    W6 m ρ c (Proc.devRef .tc r) = W3 m ρ c (Proc.devRef .tc r) :=
  (segment1_keeps (W4 m ρ c) hr).trans (kept_W4 m ρ c hr)

/-- The second product region writes its output array only; an input array of the region is read back as it was entered. -/
theorem kept_W7 {r : Ref sig .tc} (hr : r ∈ keptRefs) :
    W7 m ρ c (Proc.devRef .tc r) = W6 m ρ c (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals first
    | exact W7_of_ne m ρ c _ (by decide)
    | exact (W7_arr m ρ c 0).trans (((dat1 (V6 m ρ) c).arrAt_in 0 rfl _).trans (A_eq1 (V6 m ρ) c 0))
    | exact (W7_arr m ρ c 1).trans (((dat1 (V6 m ρ) c).arrAt_in 1 rfl _).trans (A_eq1 (V6 m ρ) c 1))

theorem kept_W9 {r : Ref sig .tc} (hr : r ∈ keptRefs) :
    W9 m ρ c (Proc.devRef .tc r) = W3 m ρ c (Proc.devRef .tc r) :=
  (segment2_keeps (W7 m ρ c) hr).trans ((kept_W7 m ρ c hr).trans (kept_W6 m ρ c hr))

/-- The third product region writes its output array only; an input array of the region is read back as it was entered. -/
theorem kept_W10 {r : Ref sig .tc} (hr : r ∈ keptRefs) :
    W10 m ρ c (Proc.devRef .tc r) = W9 m ρ c (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals first
    | exact W10_of_ne m ρ c _ (by decide)
    | exact (W10_arr m ρ c 0).trans (((dat2 (V9 m ρ) c).arrAt_in 0 rfl _).trans (A_eq2 (V9 m ρ) c 0))
    | exact (W10_arr m ρ c 1).trans (((dat2 (V9 m ρ) c).arrAt_in 1 rfl _).trans (A_eq2 (V9 m ρ) c 1))

theorem kept_W12 {r : Ref sig .tc} (hr : r ∈ keptRefs) :
    W12 m ρ c (Proc.devRef .tc r) = W3 m ρ c (Proc.devRef .tc r) :=
  (segment3_keeps (W10 m ρ c) hr).trans ((kept_W10 m ρ c hr).trans (kept_W9 m ρ c hr))

/-- The fourth product region writes its output array only; an input array of the region is read back as it was entered. -/
theorem kept_W13 {r : Ref sig .tc} (hr : r ∈ keptRefs) :
    W13 m ρ c (Proc.devRef .tc r) = W12 m ρ c (Proc.devRef .tc r) := by
  simp only [keptRefs, List.mem_cons, List.not_mem_nil, or_false] at hr
  rcases hr with rfl | rfl | rfl | rfl | rfl | rfl | rfl | rfl | rfl | rfl | rfl | rfl | rfl | rfl | rfl | rfl | rfl | rfl
  all_goals first
    | exact W13_of_ne m ρ c _ (by decide)
    | exact (W13_arr m ρ c 0).trans (((dat3 (V12 m ρ) c).arrAt_in 0 rfl _).trans (A_eq3 (V12 m ρ) c 0))
    | exact (W13_arr m ρ c 1).trans (((dat3 (V12 m ρ) c).arrAt_in 1 rfl _).trans (A_eq3 (V12 m ρ) c 1))

theorem kept_W13' {r : Ref sig .tc} (hr : r ∈ keptRefs) :
    W13 m ρ c (Proc.devRef .tc r) = W3 m ρ c (Proc.devRef .tc r) :=
  (kept_W13 m ρ c hr).trans (kept_W12 m ρ c hr)

/-! ## The values -/

/-- The edge array as launched. -/
abbrev edges : IVec Cert.ReferenceIdeal.S2x600000 32 := (m ((c : Thread nD τ).loc main_arg1))

theorem sources_W3 : W3 m ρ c (Proc.devRef .tc main_v5) = sFull (edges m c) := prelude_sources (W0 m ρ c)
theorem targets_W3 : W3 m ρ c (Proc.devRef .tc main_v6) = dFull (edges m c) := prelude_targets (W0 m ρ c)
theorem weights_W3 : W3 m ρ c (Proc.devRef .tc main_v29) = norm (F := Ideal) (edges m c) := prelude_weights (W0 m ρ c)

/-- An argument at the first region's entry, as launched. -/
theorem arg_W3' {r : Ref sig .tc} (hr : r ∈ argRefs) :
    W3 m ρ c (Proc.devRef .tc r) = m ((c : Thread nD τ).loc r) := arg_W3 m ρ c hr

/-- The node features after each layer. -/
abbrev feat1 : FVec Ideal Cert.ReferenceIdeal.S100000x128 .f32 := layer (F := Ideal) (edges m c) (m ((c : Thread nD τ).loc main_arg0)) (m ((c : Thread nD τ).loc main_arg3)) (m ((c : Thread nD τ).loc main_arg4))
abbrev feat2 : FVec Ideal Cert.ReferenceIdeal.S100000x128 .f32 := layer (F := Ideal) (edges m c) (feat1 m c) (m ((c : Thread nD τ).loc main_arg5)) (m ((c : Thread nD τ).loc main_arg6))
abbrev feat3 : FVec Ideal Cert.ReferenceIdeal.S100000x128 .f32 := layer (F := Ideal) (edges m c) (feat2 m c) (m ((c : Thread nD τ).loc main_arg7)) (m ((c : Thread nD τ).loc main_arg8))
abbrev feat4 : FVec Ideal Cert.ReferenceIdeal.S100000x128 .f32 := layer (F := Ideal) (edges m c) (feat3 m c) (m ((c : Thread nD τ).loc main_arg9)) (m ((c : Thread nD τ).loc main_arg10))

/-- The first region's output: the whole product of the input features and the first weight matrix. -/
theorem product1 : W4 m ρ c (Proc.devRef .tc main_v30) = project (F := Ideal) (m ((c : Thread nD τ).loc main_arg0)) (m ((c : Thread nD τ).loc main_arg3)) := by
  refine (W4_arr m ρ c 2).trans ((region0_value (V3 m ρ) c).trans ?_)
  show project (F := Ideal) (W3 m ρ c (Proc.devRef .tc main_arg0)) (W3 m ρ c (Proc.devRef .tc main_arg3)) = _
  rw [arg_W3' m ρ c (r := main_arg0) (by simp [argRefs]), arg_W3' m ρ c (r := main_arg3) (by simp [argRefs])]

theorem features1 : W6 m ρ c (Proc.devRef .tc main_v47) = feat1 m c := by
  refine (segment1_value (W4 m ρ c)).trans ?_
  rw [kept_W4 m ρ c (r := main_v5) (by simp [keptRefs]), kept_W4 m ρ c (r := main_v6) (by simp [keptRefs]),
    kept_W4 m ρ c (r := main_v29) (by simp [keptRefs]), kept_W4 m ρ c (r := main_arg4) (by simp [keptRefs]),
    sources_W3, targets_W3, weights_W3, arg_W3' m ρ c (r := main_arg4) (by simp [argRefs]), product1]
  rfl

theorem product2 : W7 m ρ c (Proc.devRef .tc main_v48) = project (F := Ideal) (feat1 m c) (m ((c : Thread nD τ).loc main_arg5)) := by
  refine (W7_arr m ρ c 2).trans ((region1_value (V6 m ρ) c).trans ?_)
  show project (F := Ideal) (W6 m ρ c (Proc.devRef .tc main_v47)) (W6 m ρ c (Proc.devRef .tc main_arg5)) = _
  rw [features1, kept_W6 m ρ c (r := main_arg5) (by simp [keptRefs]), arg_W3' m ρ c (r := main_arg5) (by simp [argRefs])]

theorem features2 : W9 m ρ c (Proc.devRef .tc main_v65) = feat2 m c := by
  refine (segment2_value (W7 m ρ c)).trans ?_
  rw [kept_W7 m ρ c (r := main_v5) (by simp [keptRefs]), kept_W7 m ρ c (r := main_v6) (by simp [keptRefs]),
    kept_W7 m ρ c (r := main_v29) (by simp [keptRefs]), kept_W7 m ρ c (r := main_arg6) (by simp [keptRefs]),
    kept_W6 m ρ c (r := main_v5) (by simp [keptRefs]), kept_W6 m ρ c (r := main_v6) (by simp [keptRefs]),
    kept_W6 m ρ c (r := main_v29) (by simp [keptRefs]), kept_W6 m ρ c (r := main_arg6) (by simp [keptRefs]),
    sources_W3, targets_W3, weights_W3, arg_W3' m ρ c (r := main_arg6) (by simp [argRefs]), product2]
  rfl

theorem product3 : W10 m ρ c (Proc.devRef .tc main_v66) = project (F := Ideal) (feat2 m c) (m ((c : Thread nD τ).loc main_arg7)) := by
  refine (W10_arr m ρ c 2).trans ((region2_value (V9 m ρ) c).trans ?_)
  show project (F := Ideal) (W9 m ρ c (Proc.devRef .tc main_v65)) (W9 m ρ c (Proc.devRef .tc main_arg7)) = _
  rw [features2, kept_W9 m ρ c (r := main_arg7) (by simp [keptRefs]), arg_W3' m ρ c (r := main_arg7) (by simp [argRefs])]

theorem features3 : W12 m ρ c (Proc.devRef .tc main_v83) = feat3 m c := by
  refine (segment3_value (W10 m ρ c)).trans ?_
  rw [kept_W10 m ρ c (r := main_v5) (by simp [keptRefs]), kept_W10 m ρ c (r := main_v6) (by simp [keptRefs]),
    kept_W10 m ρ c (r := main_v29) (by simp [keptRefs]), kept_W10 m ρ c (r := main_arg8) (by simp [keptRefs]),
    kept_W9 m ρ c (r := main_v5) (by simp [keptRefs]), kept_W9 m ρ c (r := main_v6) (by simp [keptRefs]),
    kept_W9 m ρ c (r := main_v29) (by simp [keptRefs]), kept_W9 m ρ c (r := main_arg8) (by simp [keptRefs]),
    sources_W3, targets_W3, weights_W3, arg_W3' m ρ c (r := main_arg8) (by simp [argRefs]), product3]
  rfl

theorem product4 : W13 m ρ c (Proc.devRef .tc main_v84) = project (F := Ideal) (feat3 m c) (m ((c : Thread nD τ).loc main_arg9)) := by
  refine (W13_arr m ρ c 2).trans ((region3_value (V12 m ρ) c).trans ?_)
  show project (F := Ideal) (W12 m ρ c (Proc.devRef .tc main_v83)) (W12 m ρ c (Proc.devRef .tc main_arg9)) = _
  rw [features3, kept_W12 m ρ c (r := main_arg9) (by simp [keptRefs]), arg_W3' m ρ c (r := main_arg9) (by simp [argRefs])]

/-- The returned buffer at the last boundary is the network of the arguments as launched. -/
theorem kernel_value : W18 m ρ c (Proc.devRef .tc main_v122)
    = network (F := Ideal)
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14)) := by
  refine (tail_value (W13 m ρ c)).trans ?_
  rw [kept_W13' m ρ c (r := main_v5) (by simp [keptRefs]), kept_W13' m ρ c (r := main_v6) (by simp [keptRefs]),
    kept_W13' m ρ c (r := main_v29) (by simp [keptRefs]), kept_W13' m ρ c (r := main_arg2) (by simp [keptRefs]),
    kept_W13' m ρ c (r := main_arg10) (by simp [keptRefs]), kept_W13' m ρ c (r := main_arg11) (by simp [keptRefs]),
    kept_W13' m ρ c (r := main_arg12) (by simp [keptRefs]), kept_W13' m ρ c (r := main_arg13) (by simp [keptRefs]),
    kept_W13' m ρ c (r := main_arg14) (by simp [keptRefs]),
    sources_W3, targets_W3, weights_W3,
    arg_W3' m ρ c (r := main_arg2) (by simp [argRefs]), arg_W3' m ρ c (r := main_arg10) (by simp [argRefs]),
    arg_W3' m ρ c (r := main_arg11) (by simp [argRefs]), arg_W3' m ρ c (r := main_arg12) (by simp [argRefs]),
    arg_W3' m ρ c (r := main_arg13) (by simp [argRefs]), arg_W3' m ρ c (r := main_arg14) (by simp [argRefs]), product4]
  rfl

end Cert.Gcn

end
-- ==== Proof.RefValue.lean ====
/-
  The reference program computes `network`.

  Its run, read back one operation at a time, leaves the returned buffer at one composed term of the argument arrays.
  That term is `network` of the arguments spelt out: the reference recomputes the self-loops, the degrees and the edge
  weights inside every layer from the same edge array, which is the same function `norm e` each time, and each of its
  four dense projections is the one whole product `project`.
-/
import proofs.«146081_j57818849738867_1_alg».proof.Proof.RefRun
import proofs.«146081_j57818849738867_1_alg».proof.Proof.Spec

set_option maxRecDepth 16384

noncomputable section

namespace Cert.Gcn

open Cert.ReferenceIdeal Idealize.ShloMosaic Idealize.ShloMosaic.TcCoe Idealize.SL.Sem

variable {F : FTy → Type} [FloatOps F]

/-- The reference's composed result term is the network of the launch contents of its fifteen arguments. -/
theorem reference_value (m : (ℓ : Loc nD τ sig) → Buf (Elt F) ℓ) (c : Dev nD) :
    Cert.ReferenceIdeal.ValueP.res_main_v200 (F := F) m c
      = network (F := F)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14)) := by
  unfold Cert.ReferenceIdeal.ValueP.res_main_v200
  rfl

end Cert.Gcn

end
-- ==== Proof.Claims.lean ====
/-
  The five claims.

  The three frames: the two kernel programs by their launch-and-region certificates, the reference by its run with the
  value dropped.  The idealization rewrote no operation, so there is nothing to preserve.  The algebraic claim: the
  idealized kernel ends with its returned buffer at `network` of its arguments (each tiled product region leaves the
  whole product, and the host glue between the regions is the reference's own), the idealized reference ends at
  `network` of its arguments, and the two memories agree on the arguments.
-/
import proofs.«146081_j57818849738867_1_alg».proof.Defs
import proofs.«146081_j57818849738867_1_alg».proof.Proof.Gen.Kernel.Frame
import proofs.«146081_j57818849738867_1_alg».proof.Proof.Gen.Pre_finite_inputs
import proofs.«146081_j57818849738867_1_alg».proof.Proof.KernelRun
import proofs.«146081_j57818849738867_1_alg».proof.Proof.KernelValue
import proofs.«146081_j57818849738867_1_alg».proof.Proof.RefValue

set_option maxRecDepth 16384

noncomputable section

namespace Cert.Gcn

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end at the one network of the (agreeing) arguments. -/
theorem algebraic : Cert.algebraic_KernelIdeal_ReferenceIdeal := by
  intro m ρ m' ρ' _ hagree
  refine ⟨fun c => Cert.KernelIdeal.Gen.W18 m ρ c (Proc.devRef .tc Cert.KernelIdeal.main_v122), kernel_run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14⟩ := hagree c
  show Cert.ReferenceIdeal.ValueP.res_main_v200 (F := Ideal) m' c
    = Cert.KernelIdeal.Gen.W18 m ρ c (Proc.devRef .tc Cert.KernelIdeal.main_v122)
  rw [reference_value, kernel_value, h0, h1, h2, h3, h4, h5, h6, h7, h8, h9, h10, h11, h12, h13, h14]

end Cert.Gcn

end
-- ==== Proof.lean ====
/- The proof of the certificate's claim: a four-layer graph convolution whose dense projections run as tiled matrix
   products on the accelerator, against the same network with each projection one whole product.  The witnesses of the
   programs' stated facts come first; the five claims are in Proof/Claims.lean, over Proof/Spec.lean (the network as pure
   functions), Proof/RefValue.lean (the reference computes it), Proof/KernelRun.lean, Proof/HostSegments.lean,
   Proof/MatmulEntry.lean, Proof/RegionValue.lean and Proof/KernelValue.lean (the kernel computes it). -/
import proofs.«146081_j57818849738867_1_alg».proof.Defs
import proofs.«146081_j57818849738867_1_alg».proof.Proof.Gen.Kernel
import proofs.«146081_j57818849738867_1_alg».proof.Proof.Gen.Kernel.Skeleton
import proofs.«146081_j57818849738867_1_alg».proof.Proof.Gen.Kernel.Launch
import proofs.«146081_j57818849738867_1_alg».proof.Proof.Gen.Kernel.Points
import proofs.«146081_j57818849738867_1_alg».proof.Proof.Gen.Kernel.Frame
import proofs.«146081_j57818849738867_1_alg».proof.Proof.Gen.KernelIdeal
import proofs.«146081_j57818849738867_1_alg».proof.Proof.Gen.KernelIdeal.Skeleton
import proofs.«146081_j57818849738867_1_alg».proof.Proof.Gen.KernelIdeal.Launch
import proofs.«146081_j57818849738867_1_alg».proof.Proof.Gen.KernelIdeal.Points
import proofs.«146081_j57818849738867_1_alg».proof.Proof.Gen.KernelIdeal.Frame
import proofs.«146081_j57818849738867_1_alg».proof.Proof.Gen.ReferenceIdeal
import proofs.«146081_j57818849738867_1_alg».proof.Proof.Gen.Pre_finite_inputs
import proofs.«146081_j57818849738867_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Gcn.frame_kernel, Cert.Gcn.frame_kernelIdeal, Cert.Gcn.frame_reference, Cert.Gcn.preserves, Cert.Gcn.algebraic⟩

end Cert.Proof

end
